-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩

abbrev nBuf : Space → Nat
  | .hbm => 103
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x128, .f32⟩
  | .hbm, ⟨95, _⟩ => ⟨S1700000x1, .f32⟩
  | .hbm, ⟨96, _⟩ => ⟨S1700000x128, .f32⟩
  | .hbm, ⟨97, _⟩ => ⟨S1700000x128, .f32⟩
  | .hbm, ⟨98, _⟩ => ⟨S_, .f32⟩
  | .hbm, ⟨99, _⟩ => ⟨S100000x128, .f32⟩
  | .hbm, ⟨100, _⟩ => ⟨S1700000x1, .i32⟩
  | .hbm, ⟨101, _⟩ => ⟨S100000x128, .f32⟩
  | .hbm, ⟨102, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x128, .f32⟩
  | 17 => ⟨S1700000x1, .f32⟩
  | 18 => ⟨S1700000x128, .f32⟩
  | 19 => ⟨S1700000x128, .f32⟩
  | 20 => ⟨S_, .f32⟩
  | 21 => ⟨S100000x128, .f32⟩
  | 22 => ⟨S1700000x1, .i32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call3_cst : Ref sig .tc := ⟨.hbm, 155, rfl⟩
abbrev main_call3_v0 : Ref sig .tc := ⟨.hbm, 156, rfl⟩
abbrev main_v115 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelStages.lean ====
/-
  The host side of the idealized kernel's @main between its four pallas_calls, read at the buffers the value needs.

  @main computes, before the first pallas_call, the graph's two index arrays (sources and targets, the self-loops
  appended) and the edge weights from the edge list alone; after each of the first three pallas_calls it applies the
  neighbourhood sum (gather the rows of the sources, scale by the edge weights, scatter-add to the targets) to that
  call's output. Here: what the stretch before the first call leaves in those three buffers, as functions of the edge
  list; what each later stretch leaves in its result buffer, as the neighbourhood sum of the buffers it reads; and that
  the index arrays, the edge weights and the argument arrays are what they were at every later segment boundary —
  no stretch of host operations and no pallas_call writes them (a pallas_call writes its output array only).
  Nothing here opens a gather or a scatter, and nothing depends on the float instance.
-/
import proofs.«154326_j86990267613312_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The graph's index arrays and edge weights, as functions of the edge list

The edge list `e` is [2, 1600000]: row 0 the sources, row 1 the targets. Every node gets a self-loop, so both index
arrays are the row followed by 0, 1, …, 99999. The degree of a node counts the edges that end in it; an edge's weight is
`deg(src)^(-1/2) · deg(dst)^(-1/2)` (zero for a node of degree zero, which cannot occur once the loops are there, but the
program asks). All of it is the host's operations read as they stand: nothing here opens a gather or a scatter. -/

/-- The sources: row 0 of the edge list, then the self-loops. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: row 1 of the edge list, then the self-loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The degrees: one unit scattered to each edge's target. -/
def degOf (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstOf (F := F) e)) (broadcastInDim S1700000 ![] bcast_S_S1700000 (constant S_ .f32 0x3F800000#32))

/-- `deg^(-1/2)` where the degree is positive, zero elsewhere. -/
def dinvOf (e : (⟨S2x1600000, .i32⟩ : BufTy).Contents (Elt F)) : (⟨S100000, .f32⟩ : BufTy).Contents (Elt F) :=
  select (cmpf (F := F) .ogt (degOf (F := F) e) (broadcastInDim S100000 ![] bcast_S_S100000 (constant S_ .f32 0x00000000#32))) (Host.rsqrt (maximumf (degOf (F := F) e) (broadcastInDim S100000 ![] bcast_S_S100000 (constant S_ .f32 0x3F800000#32)))) (broadcastInDim S100000 ![] bcast_S_S100000 (id (constant S_ .f32 0x00000000#32)))

/-- An index array made ready for a gather: a negative index counts from the end, and the index-vector axis is added. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The edge weights `deg(src)^(-1/2) · deg(dst)^(-1/2)`. -/
def normOf (e : (⟨S2x1600000, .i32⟩ : BufTy).Contents (Elt F)) : (⟨S1700000, .f32⟩ : BufTy).Contents (Elt F) :=
  mulf (Host.gather gather_S100000_S1700000x1_S1700000_n_0_n_n_0_1_1 (dinvOf (F := F) e) (wrapIdx (F := F) (srcOf (F := F) e))) (Host.gather gather_S100000_S1700000x1_S1700000_n_0_n_n_0_1_1 (dinvOf (F := F) e) (wrapIdx (F := F) (dstOf (F := F) e)))

/-- The neighbourhood sum of one layer: each edge carries its source's row of `h`, scaled by the edge's weight, into
    its target's row (a gather, a product, a scatter-add into zeros). -/
def agg (h : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (wrapIdx (F := F) src)) (broadcastInDim S1700000x128 ![0, 1] bcast_S1700000x1_S1700000x128_0_1 (broadcastInDim S1700000x1 ![0] bcast_S1700000_S1700000x1_0 nrm)))

/-- One layer's neighbourhood sum on the graph of the edge list `e`. -/
def aggOf (h : (⟨S100000x128, .f32⟩ : BufTy).Contents (Elt F)) (e : (⟨S2x1600000, .i32⟩ : BufTy).Contents (Elt F)) :
    (⟨S100000x128, .f32⟩ : BufTy).Contents (Elt F) :=
  agg (F := F) h (srcOf (F := F) e) (dstOf (F := F) e) (normOf (F := F) e)

variable (m : (ℓ : Loc nD τ sig) → Buf (Elt F) ℓ) (ρ : Dev nD → PrngReg)

/-- A buffer that no operation of a stretch writes holds after the stretch what it held before: each operation's
    result buffer is another reference. -/
local macro "not_written_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Before the first pallas_call -/

set_option maxHeartbeats 8000000 in
/-- The sources' buffer at the first pallas_call's entry. -/
theorem src_at3 (c : Dev nD) : W3 m ρ c (Proc.devRef .tc main_v3) = srcOf (F := F) (m ((c : Thread nD τ).loc main_arg1)) := by
  dsimp only [W3, W2, W1, hostOps0, hostOps0_1, hostOps0_2]
  after_results
  rfl

set_option maxHeartbeats 8000000 in
/-- The targets' buffer at the first pallas_call's entry. -/
theorem dst_at3 (c : Dev nD) : W3 m ρ c (Proc.devRef .tc main_v6) = dstOf (F := F) (m ((c : Thread nD τ).loc main_arg1)) := by
  dsimp only [W3, W2, W1, hostOps0, hostOps0_1, hostOps0_2]
  after_results
  rfl

set_option maxHeartbeats 16000000 in
/-- The edge weights' buffer at the first pallas_call's entry. -/
theorem norm_at3 (c : Dev nD) : W3 m ρ c (Proc.devRef .tc main_v31) = normOf (F := F) (m ((c : Thread nD τ).loc main_arg1)) := by
  dsimp only [W3, W2, W1, hostOps0, hostOps0_1, hostOps0_2]
  after_results_simp
  rfl

/-- Argument 0 at the first pallas_call's entry is as launched. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by not_written_by hostOps0_2
    _ = W1 m ρ c (Proc.devRef .tc main_arg0) := by not_written_by hostOps0_1
    _ = W0 m ρ c (Proc.devRef .tc main_arg0) := by not_written_by hostOps0
    _ = m ((c : Thread nD τ).loc main_arg0) := rfl

/-- Argument 2 at the first pallas_call's entry is as launched. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by not_written_by hostOps0_2
    _ = W1 m ρ c (Proc.devRef .tc main_arg2) := by not_written_by hostOps0_1
    _ = W0 m ρ c (Proc.devRef .tc main_arg2) := by not_written_by hostOps0
    _ = m ((c : Thread nD τ).loc main_arg2) := rfl

/-- Argument 3 at the first pallas_call's entry is as launched. -/
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by not_written_by hostOps0_2
    _ = W1 m ρ c (Proc.devRef .tc main_arg3) := by not_written_by hostOps0_1
    _ = W0 m ρ c (Proc.devRef .tc main_arg3) := by not_written_by hostOps0
    _ = m ((c : Thread nD τ).loc main_arg3) := rfl

/-- Argument 4 at the first pallas_call's entry is as launched. -/
theorem arg4_at3 (c : Dev nD) : W3 m ρ c (Proc.devRef .tc main_arg4) = m ((c : Thread nD τ).loc main_arg4) :=
  calc W3 m ρ c (Proc.devRef .tc main_arg4)
    _ = W2 m ρ c (Proc.devRef .tc main_arg4) := by not_written_by hostOps0_2
    _ = W1 m ρ c (Proc.devRef .tc main_arg4) := by not_written_by hostOps0_1
    _ = W0 m ρ c (Proc.devRef .tc main_arg4) := by not_written_by hostOps0
    _ = m ((c : Thread nD τ).loc main_arg4) := rfl

/-- Argument 5 at the first pallas_call's entry is as launched. -/
theorem arg5_at3 (c : Dev nD) : W3 m ρ c (Proc.devRef .tc main_arg5) = m ((c : Thread nD τ).loc main_arg5) :=
  calc W3 m ρ c (Proc.devRef .tc main_arg5)
    _ = W2 m ρ c (Proc.devRef .tc main_arg5) := by not_written_by hostOps0_2
    _ = W1 m ρ c (Proc.devRef .tc main_arg5) := by not_written_by hostOps0_1
    _ = W0 m ρ c (Proc.devRef .tc main_arg5) := by not_written_by hostOps0
    _ = m ((c : Thread nD τ).loc main_arg5) := rfl

/-- Argument 6 at the first pallas_call's entry is as launched. -/
theorem arg6_at3 (c : Dev nD) : W3 m ρ c (Proc.devRef .tc main_arg6) = m ((c : Thread nD τ).loc main_arg6) :=
  calc W3 m ρ c (Proc.devRef .tc main_arg6)
    _ = W2 m ρ c (Proc.devRef .tc main_arg6) := by not_written_by hostOps0_2
    _ = W1 m ρ c (Proc.devRef .tc main_arg6) := by not_written_by hostOps0_1
    _ = W0 m ρ c (Proc.devRef .tc main_arg6) := by not_written_by hostOps0
    _ = m ((c : Thread nD τ).loc main_arg6) := rfl

/-- Argument 7 at the first pallas_call's entry is as launched. -/
theorem arg7_at3 (c : Dev nD) : W3 m ρ c (Proc.devRef .tc main_arg7) = m ((c : Thread nD τ).loc main_arg7) :=
  calc W3 m ρ c (Proc.devRef .tc main_arg7)
    _ = W2 m ρ c (Proc.devRef .tc main_arg7) := by not_written_by hostOps0_2
    _ = W1 m ρ c (Proc.devRef .tc main_arg7) := by not_written_by hostOps0_1
    _ = W0 m ρ c (Proc.devRef .tc main_arg7) := by not_written_by hostOps0
    _ = m ((c : Thread nD τ).loc main_arg7) := rfl

/-! ## The neighbourhood sums -/

set_option maxHeartbeats 4000000 in
/-- The stretch after the first pallas_call leaves the neighbourhood sum of that call's output. -/
theorem agg_at5 (c : Dev nD) : W5 m ρ c (Proc.devRef .tc main_v45)
    = agg (F := F) (W4 m ρ c (Proc.devRef .tc main_v32)) (W4 m ρ c (Proc.devRef .tc main_v3)) (W4 m ρ c (Proc.devRef .tc main_v6)) (W4 m ρ c (Proc.devRef .tc main_v31)) := by
  dsimp only [W5, hostOps1]
  after_results
  rfl

set_option maxHeartbeats 4000000 in
/-- The stretch after the second pallas_call leaves the neighbourhood sum of that call's output. -/
theorem agg_at7 (c : Dev nD) : W7 m ρ c (Proc.devRef .tc main_v59)
    = agg (F := F) (W6 m ρ c (Proc.devRef .tc main_v46)) (W6 m ρ c (Proc.devRef .tc main_v3)) (W6 m ρ c (Proc.devRef .tc main_v6)) (W6 m ρ c (Proc.devRef .tc main_v31)) := by
  dsimp only [W7, hostOps2]
  after_results
  rfl

set_option maxHeartbeats 4000000 in
/-- The stretch after the third pallas_call leaves the neighbourhood sum of that call's output. -/
theorem agg_at9 (c : Dev nD) : W9 m ρ c (Proc.devRef .tc main_v73)
    = agg (F := F) (W8 m ρ c (Proc.devRef .tc main_v60)) (W8 m ρ c (Proc.devRef .tc main_v3)) (W8 m ρ c (Proc.devRef .tc main_v6)) (W8 m ρ c (Proc.devRef .tc main_v31)) := by
  dsimp only [W9, hostOps3]
  after_results
  rfl

/-! ## What is kept across the later boundaries -/

theorem src_at4 (c : Dev nD) : W4 m ρ c (Proc.devRef .tc main_v3) = W3 m ρ c (Proc.devRef .tc main_v3) := W4_of_ne m ρ c main_v3 (by decide)
theorem src_at5 (c : Dev nD) : W5 m ρ c (Proc.devRef .tc main_v3) = W3 m ρ c (Proc.devRef .tc main_v3) :=
  (show W5 m ρ c (Proc.devRef .tc main_v3) = W4 m ρ c (Proc.devRef .tc main_v3) by not_written_by hostOps1).trans (src_at4 m ρ c)
theorem src_at6 (c : Dev nD) : W6 m ρ c (Proc.devRef .tc main_v3) = W3 m ρ c (Proc.devRef .tc main_v3) :=
  (W6_of_ne m ρ c main_v3 (by decide)).trans (src_at5 m ρ c)
theorem src_at7 (c : Dev nD) : W7 m ρ c (Proc.devRef .tc main_v3) = W3 m ρ c (Proc.devRef .tc main_v3) :=
  (show W7 m ρ c (Proc.devRef .tc main_v3) = W6 m ρ c (Proc.devRef .tc main_v3) by not_written_by hostOps2).trans (src_at6 m ρ c)
theorem src_at8 (c : Dev nD) : W8 m ρ c (Proc.devRef .tc main_v3) = W3 m ρ c (Proc.devRef .tc main_v3) :=
  (W8_of_ne m ρ c main_v3 (by decide)).trans (src_at7 m ρ c)

theorem dst_at4 (c : Dev nD) : W4 m ρ c (Proc.devRef .tc main_v6) = W3 m ρ c (Proc.devRef .tc main_v6) := W4_of_ne m ρ c main_v6 (by decide)
theorem dst_at5 (c : Dev nD) : W5 m ρ c (Proc.devRef .tc main_v6) = W3 m ρ c (Proc.devRef .tc main_v6) :=
  (show W5 m ρ c (Proc.devRef .tc main_v6) = W4 m ρ c (Proc.devRef .tc main_v6) by not_written_by hostOps1).trans (dst_at4 m ρ c)
theorem dst_at6 (c : Dev nD) : W6 m ρ c (Proc.devRef .tc main_v6) = W3 m ρ c (Proc.devRef .tc main_v6) :=
  (W6_of_ne m ρ c main_v6 (by decide)).trans (dst_at5 m ρ c)
theorem dst_at7 (c : Dev nD) : W7 m ρ c (Proc.devRef .tc main_v6) = W3 m ρ c (Proc.devRef .tc main_v6) :=
  (show W7 m ρ c (Proc.devRef .tc main_v6) = W6 m ρ c (Proc.devRef .tc main_v6) by not_written_by hostOps2).trans (dst_at6 m ρ c)
theorem dst_at8 (c : Dev nD) : W8 m ρ c (Proc.devRef .tc main_v6) = W3 m ρ c (Proc.devRef .tc main_v6) :=
  (W8_of_ne m ρ c main_v6 (by decide)).trans (dst_at7 m ρ c)

theorem norm_at4 (c : Dev nD) : W4 m ρ c (Proc.devRef .tc main_v31) = W3 m ρ c (Proc.devRef .tc main_v31) := W4_of_ne m ρ c main_v31 (by decide)
theorem norm_at5 (c : Dev nD) : W5 m ρ c (Proc.devRef .tc main_v31) = W3 m ρ c (Proc.devRef .tc main_v31) :=
  (show W5 m ρ c (Proc.devRef .tc main_v31) = W4 m ρ c (Proc.devRef .tc main_v31) by not_written_by hostOps1).trans (norm_at4 m ρ c)
theorem norm_at6 (c : Dev nD) : W6 m ρ c (Proc.devRef .tc main_v31) = W3 m ρ c (Proc.devRef .tc main_v31) :=
  (W6_of_ne m ρ c main_v31 (by decide)).trans (norm_at5 m ρ c)
theorem norm_at7 (c : Dev nD) : W7 m ρ c (Proc.devRef .tc main_v31) = W3 m ρ c (Proc.devRef .tc main_v31) :=
  (show W7 m ρ c (Proc.devRef .tc main_v31) = W6 m ρ c (Proc.devRef .tc main_v31) by not_written_by hostOps2).trans (norm_at6 m ρ c)
theorem norm_at8 (c : Dev nD) : W8 m ρ c (Proc.devRef .tc main_v31) = W3 m ρ c (Proc.devRef .tc main_v31) :=
  (W8_of_ne m ρ c main_v31 (by decide)).trans (norm_at7 m ρ c)

theorem arg3_at4 (c : Dev nD) : W4 m ρ c (Proc.devRef .tc main_arg3) = m ((c : Thread nD τ).loc main_arg3) :=
  (W4_of_ne m ρ c main_arg3 (by decide)).trans (arg3_at3 m ρ c)
theorem arg3_at5 (c : Dev nD) : W5 m ρ c (Proc.devRef .tc main_arg3) = m ((c : Thread nD τ).loc main_arg3) :=
  (show W5 m ρ c (Proc.devRef .tc main_arg3) = W4 m ρ c (Proc.devRef .tc main_arg3) by not_written_by hostOps1).trans (arg3_at4 m ρ c)

theorem arg4_at4 (c : Dev nD) : W4 m ρ c (Proc.devRef .tc main_arg4) = m ((c : Thread nD τ).loc main_arg4) :=
  (W4_of_ne m ρ c main_arg4 (by decide)).trans (arg4_at3 m ρ c)
theorem arg4_at5 (c : Dev nD) : W5 m ρ c (Proc.devRef .tc main_arg4) = m ((c : Thread nD τ).loc main_arg4) :=
  (show W5 m ρ c (Proc.devRef .tc main_arg4) = W4 m ρ c (Proc.devRef .tc main_arg4) by not_written_by hostOps1).trans (arg4_at4 m ρ c)

theorem arg5_at4 (c : Dev nD) : W4 m ρ c (Proc.devRef .tc main_arg5) = m ((c : Thread nD τ).loc main_arg5) :=
  (W4_of_ne m ρ c main_arg5 (by decide)).trans (arg5_at3 m ρ c)
theorem arg5_at5 (c : Dev nD) : W5 m ρ c (Proc.devRef .tc main_arg5) = m ((c : Thread nD τ).loc main_arg5) :=
  (show W5 m ρ c (Proc.devRef .tc main_arg5) = W4 m ρ c (Proc.devRef .tc main_arg5) by not_written_by hostOps1).trans (arg5_at4 m ρ c)

theorem arg6_at4 (c : Dev nD) : W4 m ρ c (Proc.devRef .tc main_arg6) = m ((c : Thread nD τ).loc main_arg6) :=
  (W4_of_ne m ρ c main_arg6 (by decide)).trans (arg6_at3 m ρ c)
theorem arg6_at5 (c : Dev nD) : W5 m ρ c (Proc.devRef .tc main_arg6) = m ((c : Thread nD τ).loc main_arg6) :=
  (show W5 m ρ c (Proc.devRef .tc main_arg6) = W4 m ρ c (Proc.devRef .tc main_arg6) by not_written_by hostOps1).trans (arg6_at4 m ρ c)

theorem arg7_at4 (c : Dev nD) : W4 m ρ c (Proc.devRef .tc main_arg7) = m ((c : Thread nD τ).loc main_arg7) :=
  (W4_of_ne m ρ c main_arg7 (by decide)).trans (arg7_at3 m ρ c)
theorem arg7_at5 (c : Dev nD) : W5 m ρ c (Proc.devRef .tc main_arg7) = m ((c : Thread nD τ).loc main_arg7) :=
  (show W5 m ρ c (Proc.devRef .tc main_arg7) = W4 m ρ c (Proc.devRef .tc main_arg7) by not_written_by hostOps1).trans (arg7_at4 m ρ c)

theorem arg5_at6 (c : Dev nD) : W6 m ρ c (Proc.devRef .tc main_arg5) = m ((c : Thread nD τ).loc main_arg5) :=
  (W6_of_ne m ρ c main_arg5 (by decide)).trans (arg5_at5 m ρ c)
theorem arg5_at7 (c : Dev nD) : W7 m ρ c (Proc.devRef .tc main_arg5) = m ((c : Thread nD τ).loc main_arg5) :=
  (show W7 m ρ c (Proc.devRef .tc main_arg5) = W6 m ρ c (Proc.devRef .tc main_arg5) by not_written_by hostOps2).trans (arg5_at6 m ρ c)

theorem arg6_at6 (c : Dev nD) : W6 m ρ c (Proc.devRef .tc main_arg6) = m ((c : Thread nD τ).loc main_arg6) :=
  (W6_of_ne m ρ c main_arg6 (by decide)).trans (arg6_at5 m ρ c)
theorem arg6_at7 (c : Dev nD) : W7 m ρ c (Proc.devRef .tc main_arg6) = m ((c : Thread nD τ).loc main_arg6) :=
  (show W7 m ρ c (Proc.devRef .tc main_arg6) = W6 m ρ c (Proc.devRef .tc main_arg6) by not_written_by hostOps2).trans (arg6_at6 m ρ c)

theorem arg7_at6 (c : Dev nD) : W6 m ρ c (Proc.devRef .tc main_arg7) = m ((c : Thread nD τ).loc main_arg7) :=
  (W6_of_ne m ρ c main_arg7 (by decide)).trans (arg7_at5 m ρ c)
theorem arg7_at7 (c : Dev nD) : W7 m ρ c (Proc.devRef .tc main_arg7) = m ((c : Thread nD τ).loc main_arg7) :=
  (show W7 m ρ c (Proc.devRef .tc main_arg7) = W6 m ρ c (Proc.devRef .tc main_arg7) by not_written_by hostOps2).trans (arg7_at6 m ρ c)

theorem arg7_at8 (c : Dev nD) : W8 m ρ c (Proc.devRef .tc main_arg7) = m ((c : Thread nD τ).loc main_arg7) :=
  (W8_of_ne m ρ c main_arg7 (by decide)).trans (arg7_at7 m ρ c)
theorem arg7_at9 (c : Dev nD) : W9 m ρ c (Proc.devRef .tc main_arg7) = m ((c : Thread nD τ).loc main_arg7) :=
  (show W9 m ρ c (Proc.devRef .tc main_arg7) = W8 m ρ c (Proc.devRef .tc main_arg7) by not_written_by hostOps3).trans (arg7_at8 m ρ c)

end Cert.KernelIdeal.Hand

end
-- ==== Proof.Spec.lean ====
/-
  The two dense stages of a graph-convolution layer as whole-array functions on the extended reals, index by index,
  over the literal shapes [100000, 128] (node features), [128, 128] (a weight matrix) and [128] (a bias):

    dense x W     row r, column c  ↦  ∑ k < 128, x[r, k] · W[k, c]          (the feature transform x · W)
    biasRelu a b  row r, column c  ↦  max (a[r, c] + b[c]) 0                (the bias added along rows, then the ramp)

  A row of `dense x W` depends on the same row of `x` only, and an entry of `biasRelu a b` on the same entry of `a`
  only, so a kernel that computes either on blocks of 2000 consecutive rows fills the same array as the operation on
  the whole array: no law of arithmetic is used beyond reading a sum where it stands, and none needs finiteness.
  The zero of the ramp stays the bit pattern of +0.0 read at the ideal instance: it is the same word on both sides and
  is never evaluated.
-/
import Idealize.ShloMosaic.PureOps.Ideal
import Idealize.ShloMosaic.PureOps.Ideal.Laws
import Idealize.ShloMosaic.Lib.ValueIdx

noncomputable section

namespace Cert.Spec

open Idealize.ShloMosaic

/-- Node features: 100000 rows of 128 columns. -/
abbrev SNxD : Shape := ⟨2, ![100000, 128]⟩
/-- A weight matrix. -/
abbrev SDxD : Shape := ⟨2, ![128, 128]⟩
/-- A bias vector. -/
abbrev SD : Shape := ⟨1, ![128]⟩

/-- Entry `k` of the row of `i`: where the left factor of the `k`-th product is read. -/
def lix (i : SNxD.Idx) (k : Fin 128) : SNxD.Idx := fun a => match a with
  | ⟨0, _⟩ => ⟨(i 0).val, (i 0).isLt⟩
  | ⟨1, _⟩ => ⟨k.val, k.isLt⟩

/-- Entry `k` of the column of `i`: where the right factor of the `k`-th product is read. -/
def rix (i : SNxD.Idx) (k : Fin 128) : SDxD.Idx := fun a => match a with
  | ⟨0, _⟩ => ⟨k.val, k.isLt⟩
  | ⟨1, _⟩ => ⟨(i 1).val, (i 1).isLt⟩

/-- The column of `i`, as an index of a bias vector. -/
def cix (i : SNxD.Idx) : SD.Idx := fun a => match a with
  | ⟨0, _⟩ => ⟨(i 1).val, (i 1).isLt⟩

/-- The feature transform `x · W`: entry (r, c) is the sum over `k` of `x[r, k] · W[k, c]`. -/
def dense (x : SNxD.Idx → EReal) (W : SDxD.Idx → EReal) : SNxD.Idx → EReal :=
  fun i => ∑ k : Fin 128, x (lix i k) * W (rix i k)

/-- The bias added along rows, then the ramp: entry (r, c) is `max (a[r, c] + b[c]) 0`. -/
def biasRelu (a : SNxD.Idx → EReal) (b : SD.Idx → EReal) : SNxD.Idx → EReal :=
  fun i => max (a i + b (cix i)) (Ideal.ofBits .f32 0x00000000#32)

theorem dense_apply (x : SNxD.Idx → EReal) (W : SDxD.Idx → EReal) (i : SNxD.Idx) :
    dense x W i = ∑ k : Fin 128, x (lix i k) * W (rix i k) := rfl

theorem biasRelu_apply (a : SNxD.Idx → EReal) (b : SD.Idx → EReal) (i : SNxD.Idx) :
    biasRelu a b i = max (a i + b (cix i)) (Ideal.ofBits .f32 0x00000000#32) := rfl

end Cert.Spec

end
-- ==== Proof.RegionMatmul.lean ====
/-
  Region 0, the feature transform: each of the 50 grid points multiplies a block of 2000 consecutive rows of the
  node features by the whole weight matrix, and writes the product to the same rows of the output. Read at the
  extended reals, where the narrowing of the factors to bf16 is the identity and the product is the exact sum, the
  output array ends holding `dense x W` of the arrays the region finds: a row of the product depends on the same row
  of the features only.
-/
import proofs.«154326_j86990267613312_1_alg».proof.Proof.Gen.KernelIdeal.Frame
import proofs.«154326_j86990267613312_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## The product of a block, read at an index -/

/-- Output index `(r, c)` and summation index `k`: the left factor is read at `(r, k)`. -/
theorem mm_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- and the right factor at `(k, c)`. -/
theorem mm_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mm_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry `k` of the row of `i`, within a block of rows. -/
abbrev blkL (i : S2000x128.Idx) (k : Fin 128) : S2000x128.Idx := fun a => match a with
  | ⟨0, _⟩ => ⟨(i 0).val, (i 0).isLt⟩
  | ⟨1, _⟩ => ⟨k.val, k.isLt⟩
/-- Entry `k` of the column of `i`, in the weight matrix. -/
abbrev blkR (i : S2000x128.Idx) (k : Fin 128) : S128x128.Idx := fun a => match a with
  | ⟨0, _⟩ => ⟨k.val, k.isLt⟩
  | ⟨1, _⟩ => ⟨(i 1).val, (i 1).isLt⟩

/-- The product of a block of rows `x` with the weights `w`, accumulated into zero, read at an index at the extended
    reals: the sum over `k` of `x[r, k] · w[k, c]`. -/
theorem matmul_block_apply (x : FVec Ideal S2000x128 .bf16) (w : FVec Ideal S128x128 .bf16) (i : S2000x128.Idx) :
    matmul dot_S2000x128_S128x128_S2000x128_1_0_0_1_n_n none x w (constant (F := Ideal) S2000x128 .f32 0x00000000#32) i
      = ∑ k : Fin 128, x (blkL i k) * w (blkR i k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = blkL i k := funext fun a => Fin.ext (by
    match a with
    | ⟨0, _⟩ => exact mm_lhs_0 _ _
    | ⟨1, _⟩ => exact (mm_lhs_1 _ _).trans hk)
  have er : dot_S2000x128_S128x128_S2000x128_1_0_0_1_n_n.rhsIdx i ((ValueIdx.contrEquiv1 dot_S2000x128_S128x128_S2000x128_1_0_0_1_n_n 128 rfl rfl).symm k) = blkR i k := funext fun a => Fin.ext (by
    match a with
    | ⟨0, _⟩ => exact (mm_rhs_0 _ _).trans hk
    | ⟨1, _⟩ => exact mm_rhs_1 _ _)
  rw [el, er]

/-- The body's payload of region 0 at an index: the narrowing of both factors is the identity at the extended reals. -/
theorem pay0_apply (x : Vec Ideal S2000x128 .f32) (w : Vec Ideal S128x128 .f32) (i : S2000x128.Idx) :
    k0_pay1 (F := Ideal) x w i = ∑ k : Fin 128, x (blkL i k) * w (blkR i k) := by
  unfold k0_pay1
  exact matmul_block_apply x w i

/-! ## The blocks of the three windows -/

theorem hz : (![0, 0] : Fin 2 → Nat) = fun _ => 0 := funext fun a => by fin_cases a <;> rfl

/-- The printed index maps over the 50 points: the feature window and the output window sit at block row `t`,
    column block 0; the weight window is the whole matrix at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature window's block at point `t` is rows `2000 t … 2000 t + 1999` of the feature array. -/
theorem iblk0_0_apply (c : Dev nD) (t : Fin cfg0.N) (y : S2000x128.Idx) (i : S100000x128.Idx)
    (h0 : (i 0).val = t.val * 2000 + (y 0).val) (h1 : (i 1).val = (y 1).val) :
    (iblk0 V c 0 t : Vec Ideal S2000x128 .f32) y = (V c (Pipeline.arrRef spec0 0) : S100000x128.Idx → Elt Ideal .f32) i := by
  obtain ⟨e0, e1, -, -, -, -⟩ := idx_facts0 t
  unfold iblk0
  rw [View.read_apply]
  refine congrArg (V c (Pipeline.arrRef spec0 0) : S100000x128.Idx → Elt Ideal .f32) ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight window's block at every point is the weight matrix. -/
theorem iblk0_1_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c (Pipeline.arrRef spec0 1) : S128x128.Idx → Elt Ideal .f32) i := by
  obtain ⟨-, -, e0, e1, -, -⟩ := idx_facts0 t
  unfold iblk0
  rw [View.read_apply]
  refine congrArg (V c (Pipeline.arrRef spec0 1) : S128x128.Idx → Elt Ideal .f32) ?_
  funext a
  apply Fin.ext
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-! ## What a point writes back, and the array after the run -/

/-- Point `t` writes back block `t` of `dense x W` of the arrays the region finds: the sum at row `r` of the block reads
    row `2000 t + r` of the features and the whole weight matrix. -/
theorem flushed0_eq (c : Dev nD) (t : Fin cfg0.N) :
    (dat0 (F := Ideal) V c).flushed 2 t = ((cfg0.win 2).blk t).view.read (Elt Ideal)
      (Cert.Spec.dense (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e0, e1⟩ := idx_facts0 t
  funext j
  show k0_pay1 (F := Ideal) (iblk0 V c 0 t) (iblk0 V c 1 t) j
    = Cert.Spec.dense (V c (Pipeline.arrRef spec0 0)) (V c (Pipeline.arrRef spec0 1)) (((cfg0.win 2).blk t).view.emb j)
  refine (pay0_apply (iblk0 V c 0 t) (iblk0 V c 1 t) j).trans ?_
  rw [Cert.Spec.dense_apply]
  refine Finset.sum_congr rfl fun k _ => ?_
  refine congrArg₂ (· * ·) (iblk0_0_apply V c t _ _ ?_ ?_) (iblk0_1_apply V c t _ _ ?_ ?_)
  · show win0_2.index t (0 : Fin 2) * 2000 + 1 * (j 0).val = t.val * 2000 + (j 0).val
    rw [e0]; omega
  · rfl
  · rfl
  · show win0_2.index t (1 : Fin 2) * 128 + 1 * (j 1).val = (j 1).val
    rw [e1]; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The 50 blocks of 2000 rows fill the 100000 rows: row `r` is in the block of point `r / 2000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e0, e1⟩ := idx_facts0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 128 ≤ (i 1).val ∧ (i 1).val < win0_2.index t (1 : Fin 2) * 128 + 128
    rw [e1]; omega

/-- THE OUTPUT ARRAY OF REGION 0 after its run: the feature transform of the arrays the region finds. -/
theorem final0 (c : Dev nD) :
    (dat0 (F := Ideal) V c).arrAt 2 cfg0.N
      = Cert.Spec.dense (V c (Pipeline.arrRef spec0 0)) (V c (Pipeline.arrRef spec0 1)) :=
  (dat0 V c).arrAt_eq_of_cover 2 _ (fun t _ => flushed0_eq V c t) cover0

end Cert.KernelIdeal.Hand

end
-- ==== Proof.RegionBias.lean ====
/-
  Region 3, the last bias and ramp: each of the 50 grid points adds the bias vector along the rows of a block of 2000
  consecutive rows and takes the maximum with zero, entry by entry, and writes the result to the same rows of the
  output. An entry of the result depends on the same entry of the input only, so the output array ends holding
  `biasRelu a b` of the arrays the region finds.
-/
import proofs.«154326_j86990267613312_1_alg».proof.Proof.Gen.KernelIdeal.Frame
import proofs.«154326_j86990267613312_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-! ## The bias and ramp of a block, read at an index -/

/-- At row `p`, column `q` of a block: the bias vector is viewed as one row, that row is repeated over the 2000 rows,
    added, and the maximum with the zero splat taken; the cast of the block to its own shape is the identity. -/
theorem biasRelu_block_ix2 (x : Vec Ideal S2000x128 .f32) (b : Vec Ideal S128 .f32) (p : Fin 2000) (q : Fin 128) :
    k3_pay1 (F := Ideal) x b (ValueIdx.ix2 p q)
      = max (x (ValueIdx.ix2 p q) + b (ValueIdx.ix1 q)) (Ideal.ofBits .f32 0x00000000#32) := by
  unfold k3_pay1
  show max (shapeCast S2000x128 x shapeCasts_S2000x128_S2000x128 (ValueIdx.ix2 p q)
        + broadcastTo S2000x128 (shapeCast S1x128 b shapeCasts_S128_S1x128) broadcasts_S1x128_S2000x128 (ValueIdx.ix2 p q))
      (Ideal.ofBits .f32 0x00000000#32) = _
  rw [shapeCast_self, ValueIdx.broadcastTo_1b_ab_apply, ValueIdx.shapeCast_a_1a_apply]

/-- The same at any index of the block: entry `(r, c)` is `max (x[r, c] + b[c]) 0`. -/
theorem biasRelu_block_apply (x : Vec Ideal S2000x128 .f32) (b : Vec Ideal S128 .f32) (j : S2000x128.Idx) :
    k3_pay1 (F := Ideal) x b j = max (x j + b (ValueIdx.ix1 (j 1))) (Ideal.ofBits .f32 0x00000000#32) := by
  obtain ⟨p, q, rfl⟩ : ∃ (p : Fin 2000) (q : Fin 128), j = ValueIdx.ix2 p q := ⟨j 0, j 1, ValueIdx.eq_ix2 j⟩
  exact biasRelu_block_ix2 x b p q

/-! ## The blocks of the three windows -/

theorem zeros2 : (![0, 0] : Fin 2 → Nat) = fun _ => 0 := funext fun a => by fin_cases a <;> rfl
theorem zeros1 : (![0] : Fin 1 → Nat) = fun _ => 0 := funext fun a => by fin_cases a; rfl

/-- The printed index maps over the 50 points: the input window and the output window sit at block row `t`, column
    block 0; the bias window is the whole vector at every point. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The input window's block at point `t` is rows `2000 t … 2000 t + 1999` of the input array. -/
theorem iblk3_0_apply (c : Dev nD) (t : Fin cfg3.N) (y : S2000x128.Idx) (i : S100000x128.Idx)
    (h0 : (i 0).val = t.val * 2000 + (y 0).val) (h1 : (i 1).val = (y 1).val) :
    (iblk3 V c 0 t : Vec Ideal S2000x128 .f32) y = (V c (Pipeline.arrRef spec3 0) : S100000x128.Idx → Elt Ideal .f32) i := by
  obtain ⟨e0, e1, -, -, -⟩ := idx_facts3 t
  unfold iblk3
  rw [View.read_apply]
  refine congrArg (V c (Pipeline.arrRef spec3 0) : S100000x128.Idx → Elt Ideal .f32) ?_
  funext a
  apply Fin.ext
  match a with
  | ⟨0, _⟩ => show win3_0.index t (0 : Fin 2) * 2000 + 1 * (y 0).val = (i 0).val; rw [e0, h0]; omega
  | ⟨1, _⟩ => show win3_0.index t (1 : Fin 2) * 128 + 1 * (y 1).val = (i 1).val; rw [e1, h1]; omega

/-- The bias window's block at every point is the bias vector. -/
theorem iblk3_1_apply (c : Dev nD) (t : Fin cfg3.N) (y : S128.Idx) (i : S128.Idx) (h0 : (i 0).val = (y 0).val) :
    (iblk3 V c 1 t : Vec Ideal S128 .f32) y = (V c (Pipeline.arrRef spec3 1) : S128.Idx → Elt Ideal .f32) i := by
  obtain ⟨-, -, e0, -, -⟩ := idx_facts3 t
  unfold iblk3
  rw [View.read_apply]
  refine congrArg (V c (Pipeline.arrRef spec3 1) : S128.Idx → Elt Ideal .f32) ?_
  funext a
  apply Fin.ext
  match a with
  | ⟨0, _⟩ => show win3_1.index t (0 : Fin 1) * 128 + 1 * (y 0).val = (i 0).val; rw [e0, h0]; omega

/-! ## What a point writes back, and the array after the run -/

/-- Point `t` writes back block `t` of `biasRelu a b` of the arrays the region finds. -/
theorem flushed3_eq (c : Dev nD) (t : Fin cfg3.N) :
    (dat3 (F := Ideal) V c).flushed 2 t = ((cfg3.win 2).blk t).view.read (Elt Ideal)
      (Cert.Spec.biasRelu (V c (Pipeline.arrRef spec3 0)) (V c (Pipeline.arrRef spec3 1))) := by
  show (cfg3.win 2).cut (grid3.coords t) ((dat3 V c).after 2 t) = _
  rw [after3_2]
  unfold out3_2
  rw [View.canon_unit_zero zeros2]
  simp only [View.ld_unit_zero (S := S2000x128) zeros2, View.ld_unit_zero (S := S128) zeros1]
  obtain ⟨-, -, -, e0, e1⟩ := idx_facts3 t
  funext j
  show k3_pay1 (F := Ideal) (iblk3 V c 0 t) (iblk3 V c 1 t) j
    = Cert.Spec.biasRelu (V c (Pipeline.arrRef spec3 0)) (V c (Pipeline.arrRef spec3 1)) (((cfg3.win 2).blk t).view.emb j)
  refine (biasRelu_block_apply (iblk3 V c 0 t) (iblk3 V c 1 t) j).trans ?_
  rw [Cert.Spec.biasRelu_apply]
  refine congrArg₂ max (congrArg₂ (· + ·) (iblk3_0_apply V c t _ _ ?_ ?_) (iblk3_1_apply V c t _ _ ?_)) rfl
  · show win3_2.index t (0 : Fin 2) * 2000 + 1 * (j 0).val = t.val * 2000 + (j 0).val
    rw [e0]; omega
  · show win3_2.index t (1 : Fin 2) * 128 + 1 * (j 1).val = (j 1).val
    rw [e1]; omega
  · show win3_2.index t (1 : Fin 2) * 128 + 1 * (j 1).val = (j 1).val
    rw [e1]; omega

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v74).slice (win3_2.rect t)).set ↔ _
  rw [View.set_slice_whole, Rect.mem_set_unit]
  exact Iff.rfl

/-- The 50 blocks of 2000 rows fill the 100000 rows: row `r` is in the block of point `r / 2000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, e0, e1⟩ := idx_facts3 t
  refine ⟨t, flush3_2 t, ?_⟩
  rw [mem_blk3]
  intro a
  match a with
  | ⟨0, _⟩ =>
    show win3_2.index t (0 : Fin 2) * 2000 ≤ (i 0).val ∧ (i 0).val < win3_2.index t (0 : Fin 2) * 2000 + 2000
    rw [e0, ht]; omega
  | ⟨1, _⟩ =>
    show win3_2.index t (1 : Fin 2) * 128 ≤ (i 1).val ∧ (i 1).val < win3_2.index t (1 : Fin 2) * 128 + 128
    rw [e1]; omega

/-- THE OUTPUT ARRAY OF REGION 3 after its run: the bias and ramp of the arrays the region finds. -/
theorem final3 (c : Dev nD) :
    (dat3 (F := Ideal) V c).arrAt 2 cfg3.N
      = Cert.Spec.biasRelu (V c (Pipeline.arrRef spec3 0)) (V c (Pipeline.arrRef spec3 1)) :=
  (dat3 V c).arrAt_eq_of_cover 2 _ (fun t _ => flushed3_eq V c t) cover3

end Cert.KernelIdeal.Hand

end
-- ==== Proof.RegionFused.lean ====
/-
  Regions 1 and 2, the two fused layers: each of the 50 grid points adds the bias vector along the rows of a block of
  2000 consecutive rows, takes the maximum with zero, and multiplies the result by the whole weight matrix, writing the
  product to the same rows of the output. Read at the extended reals — the narrowing of the factors is the identity and
  the product is the exact sum — the output array ends holding `dense (biasRelu a b) W` of the arrays the region finds:
  a row of the result depends on the same row of the input only.
-/
import proofs.«154326_j86990267613312_1_alg».proof.Proof.Gen.KernelIdeal.Frame
import proofs.«154326_j86990267613312_1_alg».proof.Proof.Spec
import proofs.«154326_j86990267613312_1_alg».proof.Proof.RegionMatmul
import proofs.«154326_j86990267613312_1_alg».proof.Proof.RegionBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! # Region 1 -/

/-! ## The fused body of a block, read at an index -/

/-- The body's payload of region 1 at an index: the bias and ramp of the block (the same operations as the last
    region's body), narrowed — the identity at the extended reals —, then the product with the weights into zero:
    entry `(r, c)` is the sum over `k` of `max (x[r, k] + b[k]) 0 · w[k, c]`. -/
theorem fused_block_apply1 (x : Vec Ideal S2000x128 .f32) (b : Vec Ideal S128 .f32) (w : Vec Ideal S128x128 .f32) (i : S2000x128.Idx) :
    k1_pay1 (F := Ideal) x b w i
      = ∑ k : Fin 128, max (x (blkL i k) + b (ValueIdx.ix1 k)) (Ideal.ofBits .f32 0x00000000#32) * w (blkR i k) := by
  unfold k1_pay1
  refine (matmul_block_apply (k3_pay1 (F := Ideal) x b) w i).trans ?_
  refine Finset.sum_congr rfl fun k _ => ?_
  rw [biasRelu_block_apply]
  rfl

/-! ## The blocks of the four windows -/

/-- The printed index maps over the 50 points: the input window and the output window sit at block row `t`, column
    block 0; the bias window and the weight window are the whole vector and the whole matrix at every point. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input window's block at point `t` is rows `2000 t … 2000 t + 1999` of the input array. -/
theorem iblk1_0_apply (c : Dev nD) (t : Fin cfg1.N) (y : S2000x128.Idx) (i : S100000x128.Idx)
    (h0 : (i 0).val = t.val * 2000 + (y 0).val) (h1 : (i 1).val = (y 1).val) :
    (iblk1 V c 0 t : Vec Ideal S2000x128 .f32) y = (V c (Pipeline.arrRef spec1 0) : S100000x128.Idx → Elt Ideal .f32) i := by
  obtain ⟨e0, e1, -, -, -, -, -⟩ := idx_facts1 t
  unfold iblk1
  rw [View.read_apply]
  refine congrArg (V c (Pipeline.arrRef spec1 0) : S100000x128.Idx → Elt Ideal .f32) ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The bias window's block at every point is the bias vector. -/
theorem iblk1_1_apply (c : Dev nD) (t : Fin cfg1.N) (y : S128.Idx) (i : S128.Idx) (h0 : (i 0).val = (y 0).val) :
    (iblk1 V c 1 t : Vec Ideal S128 .f32) y = (V c (Pipeline.arrRef spec1 1) : S128.Idx → Elt Ideal .f32) i := by
  obtain ⟨-, -, e0, -, -, -, -⟩ := idx_facts1 t
  unfold iblk1
  rw [View.read_apply]
  refine congrArg (V c (Pipeline.arrRef spec1 1) : S128.Idx → Elt Ideal .f32) ?_
  funext a
  apply Fin.ext
  match a with
  | ⟨0, _⟩ => show win1_1.index t (0 : Fin 1) * 128 + 1 * (y 0).val = (i 0).val; rw [e0, h0]; omega

/-- The weight window's block at every point is the weight matrix. -/
theorem iblk1_2_apply (c : Dev nD) (t : Fin cfg1.N) (y : S128x128.Idx) (i : S128x128.Idx)
    (h0 : (i 0).val = (y 0).val) (h1 : (i 1).val = (y 1).val) :
    (iblk1 V c 2 t : Vec Ideal S128x128 .f32) y = (V c (Pipeline.arrRef spec1 2) : S128x128.Idx → Elt Ideal .f32) i := by
  obtain ⟨-, -, -, e0, e1, -, -⟩ := idx_facts1 t
  unfold iblk1
  rw [View.read_apply]
  refine congrArg (V c (Pipeline.arrRef spec1 2) : S128x128.Idx → Elt Ideal .f32) ?_
  funext a
  apply Fin.ext
  match a with
  | ⟨0, _⟩ => show win1_2.index t (0 : Fin 2) * 128 + 1 * (y 0).val = (i 0).val; rw [e0, h0]; omega
  | ⟨1, _⟩ => show win1_2.index t (1 : Fin 2) * 128 + 1 * (y 1).val = (i 1).val; rw [e1, h1]; omega

/-! ## What a point writes back, and the array after the run -/

/-- Point `t` writes back block `t` of `dense (biasRelu a b) W` of the arrays the region finds. -/
theorem flushed1_eq (c : Dev nD) (t : Fin cfg1.N) :
    (dat1 (F := Ideal) V c).flushed 3 t = ((cfg1.win 3).blk t).view.read (Elt Ideal)
      (Cert.Spec.dense (Cert.Spec.biasRelu (V c (Pipeline.arrRef spec1 0)) (V c (Pipeline.arrRef spec1 1))) (V c (Pipeline.arrRef spec1 2))) := by
  show (cfg1.win 3).cut (grid1.coords t) ((dat1 V c).after 3 t) = _
  rw [after1_3]
  unfold out1_3
  rw [View.canon_unit_zero zeros2]
  simp only [View.ld_unit_zero (S := S2000x128) zeros2, View.ld_unit_zero (S := S128) zeros1, View.ld_unit_zero (S := S128x128) zeros2]
  obtain ⟨-, -, -, -, -, e0, e1⟩ := idx_facts1 t
  funext j
  show k1_pay1 (F := Ideal) (iblk1 V c 0 t) (iblk1 V c 1 t) (iblk1 V c 2 t) j
    = Cert.Spec.dense (Cert.Spec.biasRelu (V c (Pipeline.arrRef spec1 0)) (V c (Pipeline.arrRef spec1 1))) (V c (Pipeline.arrRef spec1 2)) (((cfg1.win 3).blk t).view.emb j)
  refine (fused_block_apply1 (iblk1 V c 0 t) (iblk1 V c 1 t) (iblk1 V c 2 t) j).trans ?_
  rw [Cert.Spec.dense_apply]
  refine Finset.sum_congr rfl fun k _ => ?_
  rw [Cert.Spec.biasRelu_apply]
  refine congrArg₂ (· * ·) (congrArg₂ max (congrArg₂ (· + ·) (iblk1_0_apply V c t _ _ ?_ ?_) (iblk1_1_apply V c t _ _ ?_)) rfl)
    (iblk1_2_apply V c t _ _ ?_ ?_)
  · show win1_3.index t (0 : Fin 2) * 2000 + 1 * (j 0).val = t.val * 2000 + (j 0).val
    rw [e0]; omega
  · rfl
  · rfl
  · rfl
  · show win1_3.index t (1 : Fin 2) * 128 + 1 * (j 1).val = (j 1).val
    rw [e1]; omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v46).slice (win1_3.rect t)).set ↔ _
  rw [View.set_slice_whole, Rect.mem_set_unit]
  exact Iff.rfl

/-- The 50 blocks of 2000 rows fill the 100000 rows: row `r` is in the block of point `r / 2000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, e0, e1⟩ := idx_facts1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 128 ≤ (i 1).val ∧ (i 1).val < win1_3.index t (1 : Fin 2) * 128 + 128
    rw [e1]; omega

/-- THE OUTPUT ARRAY OF REGION 1 after its run: the fused layer of the arrays the region finds. -/
theorem final1 (c : Dev nD) :
    (dat1 (F := Ideal) V c).arrAt 3 cfg1.N
      = Cert.Spec.dense (Cert.Spec.biasRelu (V c (Pipeline.arrRef spec1 0)) (V c (Pipeline.arrRef spec1 1))) (V c (Pipeline.arrRef spec1 2)) :=
  (dat1 V c).arrAt_eq_of_cover 3 _ (fun t _ => flushed1_eq V c t) cover1

/-! # Region 2 -/

/-! ## The fused body of a block, read at an index -/

/-- The body's payload of region 2 at an index: the bias and ramp of the block (the same operations as the last
    region's body), narrowed — the identity at the extended reals —, then the product with the weights into zero:
    entry `(r, c)` is the sum over `k` of `max (x[r, k] + b[k]) 0 · w[k, c]`. -/
theorem fused_block_apply2 (x : Vec Ideal S2000x128 .f32) (b : Vec Ideal S128 .f32) (w : Vec Ideal S128x128 .f32) (i : S2000x128.Idx) :
    k2_pay1 (F := Ideal) x b w i
      = ∑ k : Fin 128, max (x (blkL i k) + b (ValueIdx.ix1 k)) (Ideal.ofBits .f32 0x00000000#32) * w (blkR i k) := by
  unfold k2_pay1
  refine (matmul_block_apply (k3_pay1 (F := Ideal) x b) w i).trans ?_
  refine Finset.sum_congr rfl fun k _ => ?_
  rw [biasRelu_block_apply]
  rfl

/-! ## The blocks of the four windows -/

/-- The printed index maps over the 50 points: the input window and the output window sit at block row `t`, column
    block 0; the bias window and the weight window are the whole vector and the whole matrix at every point. -/
theorem idx_facts2 : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input window's block at point `t` is rows `2000 t … 2000 t + 1999` of the input array. -/
theorem iblk2_0_apply (c : Dev nD) (t : Fin cfg2.N) (y : S2000x128.Idx) (i : S100000x128.Idx)
    (h0 : (i 0).val = t.val * 2000 + (y 0).val) (h1 : (i 1).val = (y 1).val) :
    (iblk2 V c 0 t : Vec Ideal S2000x128 .f32) y = (V c (Pipeline.arrRef spec2 0) : S100000x128.Idx → Elt Ideal .f32) i := by
  obtain ⟨e0, e1, -, -, -, -, -⟩ := idx_facts2 t
  unfold iblk2
  rw [View.read_apply]
  refine congrArg (V c (Pipeline.arrRef spec2 0) : S100000x128.Idx → Elt Ideal .f32) ?_
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The bias window's block at every point is the bias vector. -/
theorem iblk2_1_apply (c : Dev nD) (t : Fin cfg2.N) (y : S128.Idx) (i : S128.Idx) (h0 : (i 0).val = (y 0).val) :
    (iblk2 V c 1 t : Vec Ideal S128 .f32) y = (V c (Pipeline.arrRef spec2 1) : S128.Idx → Elt Ideal .f32) i := by
  obtain ⟨-, -, e0, -, -, -, -⟩ := idx_facts2 t
  unfold iblk2
  rw [View.read_apply]
  refine congrArg (V c (Pipeline.arrRef spec2 1) : S128.Idx → Elt Ideal .f32) ?_
  funext a
  apply Fin.ext
  match a with
  | ⟨0, _⟩ => show win2_1.index t (0 : Fin 1) * 128 + 1 * (y 0).val = (i 0).val; rw [e0, h0]; omega

/-- The weight window's block at every point is the weight matrix. -/
theorem iblk2_2_apply (c : Dev nD) (t : Fin cfg2.N) (y : S128x128.Idx) (i : S128x128.Idx)
    (h0 : (i 0).val = (y 0).val) (h1 : (i 1).val = (y 1).val) :
    (iblk2 V c 2 t : Vec Ideal S128x128 .f32) y = (V c (Pipeline.arrRef spec2 2) : S128x128.Idx → Elt Ideal .f32) i := by
  obtain ⟨-, -, -, e0, e1, -, -⟩ := idx_facts2 t
  unfold iblk2
  rw [View.read_apply]
  refine congrArg (V c (Pipeline.arrRef spec2 2) : S128x128.Idx → Elt Ideal .f32) ?_
  funext a
  apply Fin.ext
  match a with
  | ⟨0, _⟩ => show win2_2.index t (0 : Fin 2) * 128 + 1 * (y 0).val = (i 0).val; rw [e0, h0]; omega
  | ⟨1, _⟩ => show win2_2.index t (1 : Fin 2) * 128 + 1 * (y 1).val = (i 1).val; rw [e1, h1]; omega

/-! ## What a point writes back, and the array after the run -/

/-- Point `t` writes back block `t` of `dense (biasRelu a b) W` of the arrays the region finds. -/
theorem flushed2_eq (c : Dev nD) (t : Fin cfg2.N) :
    (dat2 (F := Ideal) V c).flushed 3 t = ((cfg2.win 3).blk t).view.read (Elt Ideal)
      (Cert.Spec.dense (Cert.Spec.biasRelu (V c (Pipeline.arrRef spec2 0)) (V c (Pipeline.arrRef spec2 1))) (V c (Pipeline.arrRef spec2 2))) := by
  show (cfg2.win 3).cut (grid2.coords t) ((dat2 V c).after 3 t) = _
  rw [after2_3]
  unfold out2_3
  rw [View.canon_unit_zero zeros2]
  simp only [View.ld_unit_zero (S := S2000x128) zeros2, View.ld_unit_zero (S := S128) zeros1, View.ld_unit_zero (S := S128x128) zeros2]
  obtain ⟨-, -, -, -, -, e0, e1⟩ := idx_facts2 t
  funext j
  show k2_pay1 (F := Ideal) (iblk2 V c 0 t) (iblk2 V c 1 t) (iblk2 V c 2 t) j
    = Cert.Spec.dense (Cert.Spec.biasRelu (V c (Pipeline.arrRef spec2 0)) (V c (Pipeline.arrRef spec2 1))) (V c (Pipeline.arrRef spec2 2)) (((cfg2.win 3).blk t).view.emb j)
  refine (fused_block_apply2 (iblk2 V c 0 t) (iblk2 V c 1 t) (iblk2 V c 2 t) j).trans ?_
  rw [Cert.Spec.dense_apply]
  refine Finset.sum_congr rfl fun k _ => ?_
  rw [Cert.Spec.biasRelu_apply]
  refine congrArg₂ (· * ·) (congrArg₂ max (congrArg₂ (· + ·) (iblk2_0_apply V c t _ _ ?_ ?_) (iblk2_1_apply V c t _ _ ?_)) rfl)
    (iblk2_2_apply V c t _ _ ?_ ?_)
  · show win2_3.index t (0 : Fin 2) * 2000 + 1 * (j 0).val = t.val * 2000 + (j 0).val
    rw [e0]; omega
  · rfl
  · rfl
  · rfl
  · show win2_3.index t (1 : Fin 2) * 128 + 1 * (j 1).val = (j 1).val
    rw [e1]; omega

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v60).slice (win2_3.rect t)).set ↔ _
  rw [View.set_slice_whole, Rect.mem_set_unit]
  exact Iff.rfl

/-- The 50 blocks of 2000 rows fill the 100000 rows: row `r` is in the block of point `r / 2000`. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, e0, e1⟩ := idx_facts2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 128 ≤ (i 1).val ∧ (i 1).val < win2_3.index t (1 : Fin 2) * 128 + 128
    rw [e1]; omega

/-- THE OUTPUT ARRAY OF REGION 2 after its run: the fused layer of the arrays the region finds. -/
theorem final2 (c : Dev nD) :
    (dat2 (F := Ideal) V c).arrAt 3 cfg2.N
      = Cert.Spec.dense (Cert.Spec.biasRelu (V c (Pipeline.arrRef spec2 0)) (V c (Pipeline.arrRef spec2 1))) (V c (Pipeline.arrRef spec2 2)) :=
  (dat2 V c).arrAt_eq_of_cover 3 _ (fun t _ => flushed2_eq V c t) cover2

end Cert.KernelIdeal.Hand

end
-- ==== Proof.KernelValue.lean ====
/-
  The idealized kernel's result as the three graph-convolution layers of the arguments.

  Walking @main's segment boundaries in order, at the ideal instance: the first pallas_call leaves `x · W1` in its output
  array (its blocks of 2000 rows tile the array, and a row of the product depends on the same row of `x` only); the
  stretch after it leaves the neighbourhood sum of that array; the second and third pallas_calls leave
  `max (a + b) 0 · W` of the array and the arguments they find; the last leaves `max (a + b) 0`. The index arrays, the
  edge weights and the arguments are at every boundary what they were at the first, so the result is one composition
  of the two dense stages and the neighbourhood sum applied to the arguments' launch contents.
-/
import proofs.«154326_j86990267613312_1_alg».proof.Proof.KernelStages
import proofs.«154326_j86990267613312_1_alg».proof.Proof.RegionMatmul
import proofs.«154326_j86990267613312_1_alg».proof.Proof.RegionFused
import proofs.«154326_j86990267613312_1_alg».proof.Proof.RegionBias
import proofs.«154326_j86990267613312_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem

/-- Three layers: the feature transform, the neighbourhood sum, the bias and the ramp; the bias and ramp of a layer
    stand in front of the next layer's feature transform. -/
def kerTerm (x : (⟨S100000x128, .f32⟩ : BufTy).Contents (Elt Ideal)) (e : (⟨S2x1600000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) :
    (⟨S100000x128, .f32⟩ : BufTy).Contents (Elt Ideal) :=
  Cert.Spec.biasRelu (aggOf (F := Ideal) (Cert.Spec.dense
    (Cert.Spec.biasRelu (aggOf (F := Ideal) (Cert.Spec.dense
      (Cert.Spec.biasRelu (aggOf (F := Ideal) (Cert.Spec.dense x W1) e) b1) W2) e) b2) W3) e) b3

variable (m : (ℓ : Loc nD τ sig) → Buf (Elt Ideal) ℓ) (ρ : Dev nD → PrngReg)

/-- After the first pallas_call: `x · W1`. -/
theorem out0 (c : Dev nD) : W4 m ρ c (Proc.devRef .tc main_v32)
    = Cert.Spec.dense (m ((c : Thread nD τ).loc main_arg0)) (m ((c : Thread nD τ).loc main_arg2)) := by
  refine (W4_arr m ρ c 2).trans ((final0 (V3 m ρ) c).trans ?_)
  rw [show V3 m ρ c (Pipeline.arrRef spec0 0) = m ((c : Thread nD τ).loc main_arg0) from arg0_at3 m ρ c,
    show V3 m ρ c (Pipeline.arrRef spec0 1) = m ((c : Thread nD τ).loc main_arg2) from arg2_at3 m ρ c]

/-- The first neighbourhood sum. -/
theorem sum1 (c : Dev nD) : W5 m ρ c (Proc.devRef .tc main_v45)
    = aggOf (F := Ideal) (Cert.Spec.dense (m ((c : Thread nD τ).loc main_arg0)) (m ((c : Thread nD τ).loc main_arg2))) (m ((c : Thread nD τ).loc main_arg1)) := by
  rw [agg_at5, out0, src_at4, dst_at4, norm_at4, src_at3, dst_at3, norm_at3]
  rfl

/-- After the second pallas_call. -/
theorem out1 (c : Dev nD) : W6 m ρ c (Proc.devRef .tc main_v46)
    = Cert.Spec.dense (Cert.Spec.biasRelu (aggOf (F := Ideal) (Cert.Spec.dense (m ((c : Thread nD τ).loc main_arg0)) (m ((c : Thread nD τ).loc main_arg2))) (m ((c : Thread nD τ).loc main_arg1))) (m ((c : Thread nD τ).loc main_arg3))) (m ((c : Thread nD τ).loc main_arg4)) := by
  refine (W6_arr m ρ c 3).trans ((final1 (V5 m ρ) c).trans ?_)
  rw [show V5 m ρ c (Pipeline.arrRef spec1 0) = _ from sum1 m ρ c,
    show V5 m ρ c (Pipeline.arrRef spec1 1) = m ((c : Thread nD τ).loc main_arg3) from arg3_at5 m ρ c,
    show V5 m ρ c (Pipeline.arrRef spec1 2) = m ((c : Thread nD τ).loc main_arg4) from arg4_at5 m ρ c]

/-- The second neighbourhood sum. -/
theorem sum2 (c : Dev nD) : W7 m ρ c (Proc.devRef .tc main_v59)
    = aggOf (F := Ideal) (Cert.Spec.dense (Cert.Spec.biasRelu (aggOf (F := Ideal) (Cert.Spec.dense (m ((c : Thread nD τ).loc main_arg0)) (m ((c : Thread nD τ).loc main_arg2))) (m ((c : Thread nD τ).loc main_arg1))) (m ((c : Thread nD τ).loc main_arg3))) (m ((c : Thread nD τ).loc main_arg4))) (m ((c : Thread nD τ).loc main_arg1)) := by
  rw [agg_at7, out1, src_at6, dst_at6, norm_at6, src_at3, dst_at3, norm_at3]
  rfl

/-- After the third pallas_call. -/
theorem out2 (c : Dev nD) : W8 m ρ c (Proc.devRef .tc main_v60)
    = Cert.Spec.dense (Cert.Spec.biasRelu (aggOf (F := Ideal) (Cert.Spec.dense (Cert.Spec.biasRelu (aggOf (F := Ideal) (Cert.Spec.dense (m ((c : Thread nD τ).loc main_arg0)) (m ((c : Thread nD τ).loc main_arg2))) (m ((c : Thread nD τ).loc main_arg1))) (m ((c : Thread nD τ).loc main_arg3))) (m ((c : Thread nD τ).loc main_arg4))) (m ((c : Thread nD τ).loc main_arg1))) (m ((c : Thread nD τ).loc main_arg5))) (m ((c : Thread nD τ).loc main_arg6)) := by
  refine (W8_arr m ρ c 3).trans ((final2 (V7 m ρ) c).trans ?_)
  rw [show V7 m ρ c (Pipeline.arrRef spec2 0) = _ from sum2 m ρ c,
    show V7 m ρ c (Pipeline.arrRef spec2 1) = m ((c : Thread nD τ).loc main_arg5) from arg5_at7 m ρ c,
    show V7 m ρ c (Pipeline.arrRef spec2 2) = m ((c : Thread nD τ).loc main_arg6) from arg6_at7 m ρ c]

/-- The third neighbourhood sum. -/
theorem sum3 (c : Dev nD) : W9 m ρ c (Proc.devRef .tc main_v73)
    = aggOf (F := Ideal) (Cert.Spec.dense (Cert.Spec.biasRelu (aggOf (F := Ideal) (Cert.Spec.dense (Cert.Spec.biasRelu (aggOf (F := Ideal) (Cert.Spec.dense (m ((c : Thread nD τ).loc main_arg0)) (m ((c : Thread nD τ).loc main_arg2))) (m ((c : Thread nD τ).loc main_arg1))) (m ((c : Thread nD τ).loc main_arg3))) (m ((c : Thread nD τ).loc main_arg4))) (m ((c : Thread nD τ).loc main_arg1))) (m ((c : Thread nD τ).loc main_arg5))) (m ((c : Thread nD τ).loc main_arg6))) (m ((c : Thread nD τ).loc main_arg1)) := by
  rw [agg_at9, out2, src_at8, dst_at8, norm_at8, src_at3, dst_at3, norm_at3]
  rfl

/-- THE RESULT: after the last pallas_call the result buffer holds the three layers of the arguments. -/
theorem result_eq (c : Dev nD) : W10 m ρ c (Proc.devRef .tc main_v74)
    = kerTerm (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (W10_arr m ρ c 2).trans ((final3 (V9 m ρ) c).trans ?_)
  rw [show V9 m ρ c (Pipeline.arrRef spec3 0) = _ from sum3 m ρ c,
    show V9 m ρ c (Pipeline.arrRef spec3 1) = m ((c : Thread nD τ).loc main_arg7) from arg7_at9 m ρ c]
  rfl

end Cert.KernelIdeal.Hand

end
-- ==== Proof.RefValue.lean ====
/-
  The reference's result as a composition of named stages, and its two dense stages read index by index.

  One graph-convolution layer is: the feature transform `x · W` (the host's `dot_general`), the neighbourhood sum over
  the edges (a gather of rows, a product with the edge weights, a scatter-add: `aggOf`), the bias added along rows and
  the ramp. The reference applies three layers. Its result term, written out by the run of its host operations, IS
  that composition (`res_eq`: the two terms are the same operations applied to the same operands; the edge weights,
  which the reference computes once per layer, are the same term each time). The neighbourhood sum is never opened.
  At the ideal instance the host's `dot_general` at an index is the sum over the contracted axis of the products of
  the row's and the column's entries (`hostDense_eq`), and the bias and the ramp act entry by entry, the bias read at
  the entry's column (`hostBiasRelu_eq`).
-/
import proofs.«154326_j86990267613312_1_alg».proof.Proof.RefRun
import proofs.«154326_j86990267613312_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

section AnyInstance

variable {F : FTy → Type} [FloatOps F]

/-! ## The graph's index arrays and edge weights, as functions of the edge list

The edge list `e` is [2, 1600000]: row 0 the sources, row 1 the targets. Every node gets a self-loop, so both index
arrays are the row followed by 0, 1, …, 99999. The degree of a node counts the edges that end in it; an edge's weight is
`deg(src)^(-1/2) · deg(dst)^(-1/2)` (zero for a node of degree zero, which cannot occur once the loops are there, but the
program asks). All of it is the host's operations read as they stand: nothing here opens a gather or a scatter. -/

/-- The sources: row 0 of the edge list, then the self-loops. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: row 1 of the edge list, then the self-loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The degrees: one unit scattered to each edge's target. -/
def degOf (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstOf (F := F) e)) (broadcastInDim S1700000 ![] bcast_S_S1700000 (constant S_ .f32 0x3F800000#32))

/-- `deg^(-1/2)` where the degree is positive, zero elsewhere. -/
def dinvOf (e : (⟨S2x1600000, .i32⟩ : BufTy).Contents (Elt F)) : (⟨S100000, .f32⟩ : BufTy).Contents (Elt F) :=
  select (cmpf (F := F) .ogt (degOf (F := F) e) (broadcastInDim S100000 ![] bcast_S_S100000 (constant S_ .f32 0x00000000#32))) (Host.rsqrt (maximumf (degOf (F := F) e) (broadcastInDim S100000 ![] bcast_S_S100000 (constant S_ .f32 0x3F800000#32)))) (broadcastInDim S100000 ![] bcast_S_S100000 (id (constant S_ .f32 0x00000000#32)))

/-- An index array made ready for a gather: a negative index counts from the end, and the index-vector axis is added. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The edge weights `deg(src)^(-1/2) · deg(dst)^(-1/2)`. -/
def normOf (e : (⟨S2x1600000, .i32⟩ : BufTy).Contents (Elt F)) : (⟨S1700000, .f32⟩ : BufTy).Contents (Elt F) :=
  mulf (Host.gather gather_S100000_S1700000x1_S1700000_n_0_n_n_0_1_1 (dinvOf (F := F) e) (wrapIdx (F := F) (srcOf (F := F) e))) (Host.gather gather_S100000_S1700000x1_S1700000_n_0_n_n_0_1_1 (dinvOf (F := F) e) (wrapIdx (F := F) (dstOf (F := F) e)))

/-- The neighbourhood sum of one layer: each edge carries its source's row of `h`, scaled by the edge's weight, into
    its target's row (a gather, a product, a scatter-add into zeros). -/
def agg (h : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (wrapIdx (F := F) src)) (broadcastInDim S1700000x128 ![0, 1] bcast_S1700000x1_S1700000x128_0_1 (broadcastInDim S1700000x1 ![0] bcast_S1700000_S1700000x1_0 nrm)))

/-- One layer's neighbourhood sum on the graph of the edge list `e`. -/
def aggOf (h : (⟨S100000x128, .f32⟩ : BufTy).Contents (Elt F)) (e : (⟨S2x1600000, .i32⟩ : BufTy).Contents (Elt F)) :
    (⟨S100000x128, .f32⟩ : BufTy).Contents (Elt F) :=
  agg (F := F) h (srcOf (F := F) e) (dstOf (F := F) e) (normOf (F := F) e)

/-- The feature transform as the host computes it. -/
def hostDense (x : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none x W

/-- The bias along rows and the ramp as the host computes them. -/
def hostBiasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- Three layers, as the reference applies them. -/
def refTerm (x : (⟨S100000x128, .f32⟩ : BufTy).Contents (Elt F)) (e : (⟨S2x1600000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) :
    (⟨S100000x128, .f32⟩ : BufTy).Contents (Elt F) :=
  hostBiasRelu (F := F) (aggOf (F := F) (hostDense (F := F)
    (hostBiasRelu (F := F) (aggOf (F := F) (hostDense (F := F)
      (hostBiasRelu (F := F) (aggOf (F := F) (hostDense (F := F) x W1) e) b1) W2) e) b2) W3) e) b3

set_option maxRecDepth 8192 in
set_option maxHeartbeats 4000000 in
/-- The run's result term is the three layers of the arguments' launch contents. -/
theorem res_eq (m : (ℓ : Loc nD τ sig) → Buf (Elt F) ℓ) (c : Dev nD) :
    Cert.ReferenceIdeal.ValueP.res_main_v115 (F := F) m c
      = refTerm (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v115 refTerm hostBiasRelu hostDense aggOf agg normOf dinvOf degOf wrapIdx srcOf dstOf
  rfl

end AnyInstance

/-! ## The two dense stages at the ideal instance, index by index -/

theorem lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_contr (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_contr (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's `dot_general` of a [100000,128] by a [128,128] array, contracting the columns of the first with the rows
    of the second, is at entry (r, c) the sum over `k` of `x[r, k] · W[k, c]`. -/
theorem hostDense_eq (x : (⟨S100000x128, .f32⟩ : BufTy).Contents (Elt Ideal)) (W : (⟨S128x128, .f32⟩ : BufTy).Contents (Elt Ideal)) :
    hostDense (F := Ideal) x W = Cert.Spec.dense x W := by
  funext i
  unfold hostDense
  simp only [Host.dotGeneral]
  rw [Ideal.dotGeneral_apply, ← Equiv.sum_comp (ValueIdx.contrEquiv1 dot_S100000x128_S128x128_S100000x128_1_0_0_1_n_n 128 rfl rfl).symm, Cert.Spec.dense_apply]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Cert.Spec.lix i k := funext fun a => Fin.ext (by
    match a with
    | ⟨0, _⟩ => exact lhs_row _ _
    | ⟨1, _⟩ => exact (lhs_contr _ _).trans hk)
  have er : dot_S100000x128_S128x128_S100000x128_1_0_0_1_n_n.rhsIdx i ((ValueIdx.contrEquiv1 dot_S100000x128_S128x128_S100000x128_1_0_0_1_n_n 128 rfl rfl).symm k) = Cert.Spec.rix i k := funext fun a => Fin.ext (by
    match a with
    | ⟨0, _⟩ => exact (rhs_contr _ _).trans hk
    | ⟨1, _⟩ => exact rhs_col _ _)
  rw [el, er]

/-- Where the doubly broadcast bias is read: the unit row, the entry's column. -/
def rowIdx (i : S100000x128.Idx) : S1x128.Idx := fun a => match a with
  | ⟨0, _⟩ => ⟨0, Nat.one_pos⟩
  | ⟨1, _⟩ => ⟨(i 1).val, (i 1).isLt⟩

/-- The bias broadcast along rows, read at an entry: the bias at the entry's column. -/
theorem bias_apply (b : (⟨S128, .f32⟩ : BufTy).Contents (Elt Ideal)) (i : S100000x128.Idx) :
    broadcastInDim S100000x128 ![0, 1] bcast_S1x128_S100000x128_0_1 (broadcastInDim S1x128 ![1] bcast_S128_S1x128_1 b) i = b (Cert.Spec.cix i) := by
  generalize hy : broadcastInDim S1x128 ![1] bcast_S128_S1x128_1 b = y
  rw [broadcastInDim_apply _ bcast_S1x128_S100000x128_0_1 y i (rowIdx i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ bcast_S128_S1x128_1 b (rowIdx i) (Cert.Spec.cix i) (fun a => match a with
    | ⟨0, _⟩ => by show (i 1).val = if (128 : Nat) = 1 then 0 else (i 1).val; rw [if_neg (by decide)])

/-- The host's bias and ramp act entry by entry, the bias read at the entry's column. -/
theorem hostBiasRelu_eq (a : (⟨S100000x128, .f32⟩ : BufTy).Contents (Elt Ideal)) (b : (⟨S128, .f32⟩ : BufTy).Contents (Elt Ideal)) :
    hostBiasRelu (F := Ideal) a b = Cert.Spec.biasRelu a b := by
  funext i
  unfold hostBiasRelu
  show FloatOps.maximumf (FloatOps.addf (a i) (broadcastInDim S100000x128 ![0, 1] bcast_S1x128_S100000x128_0_1 (broadcastInDim S1x128 ![1] bcast_S128_S1x128_1 b) i))
      (broadcastInDim S100000x128 ![] bcast_S_S100000x128 (constant (F := Ideal) S_ .f32 0x00000000#32) i) = _
  rw [bias_apply, broadcastInDim_apply _ bcast_S_S100000x128 (constant (F := Ideal) S_ .f32 0x00000000#32) i (fun a => a.elim0) (fun a => a.elim0)]
  rfl

end Cert.ReferenceIdeal.Hand

end
-- ==== Proof.lean ====
/-
  A three-layer graph convolution on 100000 nodes with 128 features: each layer is the feature transform `x · W`, the
  neighbourhood sum over 1700000 weighted edges (the graph's edges and one self-loop per node, each weighted by
  `deg(src)^(-1/2) · deg(dst)^(-1/2)`), the bias and the ramp `max (· + b) 0`.

  The kernel program computes the index arrays and edge weights once and runs the dense stages as four pallas_calls on
  blocks of 2000 rows — `x · W1`; then twice `max (a + b) 0 · W`, the bias and ramp of one layer fused in front of the
  next layer's product; then `max (a + b) 0` — with the neighbourhood sums as host operations between them. The
  reference runs every stage as a host operation on the whole arrays and recomputes the edge weights in each layer.

  At the ideal instance both results are the same composition of three functions of the arguments: `dense` and
  `biasRelu` (Proof/Spec.lean: a sum of 128 products read where it stands; a maximum of a sum) and the neighbourhood
  sum, which is the same host operations applied to the same operands in both programs and is never opened. The
  kernel's side: a row of `x · W` depends on the same row of `x` only and an entry of the bias-and-ramp on the same
  entry only, so the blocks of 2000 rows fill the array that the whole-array operation fills, and the matrix product
  into a zero accumulator is the sum the host's contraction is. The changes of float format in the kernel are the
  identity at the ideal instance. No law of arithmetic beyond this reading is used, so the precondition (finite
  inputs) is never opened, and the ideal pass rewrote nothing, so there is nothing to preserve.
-/
import proofs.«154326_j86990267613312_1_alg».proof.Defs
import proofs.«154326_j86990267613312_1_alg».proof.Proof.Gen.Kernel
import proofs.«154326_j86990267613312_1_alg».proof.Proof.Gen.Kernel.Skeleton
import proofs.«154326_j86990267613312_1_alg».proof.Proof.Gen.Kernel.Launch
import proofs.«154326_j86990267613312_1_alg».proof.Proof.Gen.Kernel.Points
import proofs.«154326_j86990267613312_1_alg».proof.Proof.Gen.Kernel.Frame
import proofs.«154326_j86990267613312_1_alg».proof.Proof.Gen.KernelIdeal
import proofs.«154326_j86990267613312_1_alg».proof.Proof.Gen.KernelIdeal.Skeleton
import proofs.«154326_j86990267613312_1_alg».proof.Proof.Gen.KernelIdeal.Launch
import proofs.«154326_j86990267613312_1_alg».proof.Proof.Gen.KernelIdeal.Points
import proofs.«154326_j86990267613312_1_alg».proof.Proof.Gen.KernelIdeal.Frame
import proofs.«154326_j86990267613312_1_alg».proof.Proof.Gen.ReferenceIdeal
import proofs.«154326_j86990267613312_1_alg».proof.Proof.Gen.Pre_finite_inputs
import proofs.«154326_j86990267613312_1_alg».proof.Proof.KernelRun
import proofs.«154326_j86990267613312_1_alg».proof.Proof.KernelValue
import proofs.«154326_j86990267613312_1_alg».proof.Proof.RefRun
import proofs.«154326_j86990267613312_1_alg».proof.Proof.RefValue
import Idealize.ShloMosaic.Adequacy
import Idealize.ShloMosaic.Init

set_option maxRecDepth 16384

noncomputable section

namespace Cert.Proof

open Idealize.ShloMosaic Idealize.SL.Sem

/-- The neighbourhood sum is the same function in both programs: the same host operations over the same shape
    records. -/
theorem aggOf_eq (h : (⟨Cert.ReferenceIdeal.S100000x128, .f32⟩ : BufTy).Contents (Elt Ideal))
    (e : (⟨Cert.ReferenceIdeal.S2x1600000, .i32⟩ : BufTy).Contents (Elt Ideal)) :
    Cert.ReferenceIdeal.Hand.aggOf (F := Ideal) h e = Cert.KernelIdeal.Hand.aggOf (F := Ideal) h e := rfl

/-- The reference's three layers are the kernel's: stage by stage the same function. -/
theorem ref_eq_ker (x : (⟨Cert.ReferenceIdeal.S100000x128, .f32⟩ : BufTy).Contents (Elt Ideal))
    (e : (⟨Cert.ReferenceIdeal.S2x1600000, .i32⟩ : BufTy).Contents (Elt Ideal))
    (W1 : (⟨Cert.ReferenceIdeal.S128x128, .f32⟩ : BufTy).Contents (Elt Ideal)) (b1 : (⟨Cert.ReferenceIdeal.S128, .f32⟩ : BufTy).Contents (Elt Ideal))
    (W2 : (⟨Cert.ReferenceIdeal.S128x128, .f32⟩ : BufTy).Contents (Elt Ideal)) (b2 : (⟨Cert.ReferenceIdeal.S128, .f32⟩ : BufTy).Contents (Elt Ideal))
    (W3 : (⟨Cert.ReferenceIdeal.S128x128, .f32⟩ : BufTy).Contents (Elt Ideal)) (b3 : (⟨Cert.ReferenceIdeal.S128, .f32⟩ : BufTy).Contents (Elt Ideal)) :
    Cert.ReferenceIdeal.Hand.refTerm (F := Ideal) x e W1 b1 W2 b2 W3 b3 = Cert.KernelIdeal.Hand.kerTerm x e W1 b1 W2 b2 W3 b3 := by
  unfold Cert.ReferenceIdeal.Hand.refTerm Cert.KernelIdeal.Hand.kerTerm
  simp only [Cert.ReferenceIdeal.Hand.hostDense_eq, Cert.ReferenceIdeal.Hand.hostBiasRelu_eq, aggOf_eq]

theorem frame_k : Cert.frame_Kernel := fun m ρ _ => Cert.Kernel.Gen.frame m ρ
theorem frame_ki : Cert.frame_KernelIdeal := fun m ρ _ => Cert.KernelIdeal.Gen.frame m ρ
/-- The reference has no pallas_call: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at the three layers of the arguments, which agree. -/
theorem algebraic : Cert.algebraic_KernelIdeal_ReferenceIdeal := by
  intro m ρ m' ρ' _ hagree
  refine ⟨fun c => Cert.KernelIdeal.Hand.kerTerm
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Hand.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact ref_eq_ker _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
